-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1000x8x512 : Shape := ⟨3, ![1000, 8, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1000x8x512 : S_.BroadcastsInDim S1000x8x512 (![] : Fin 0 → Fin S1000x8x512.rank)
  reducesTo_S1000x8x512_S_d0_1_2 : S1000x8x512.ReducesTo [0, 1, 2] S_

variable [Facts]

def fn {F : FTy → Type} [FloatOps F] (main_arg0 : FVec F S8192x512 .f32) (main_arg1 : FVec F S1000x8x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1000x8x512 .f32 := Host.absf main_arg1
  let main_cst_0 : FVec F S_ .f32 := constant S_ .f32 0x7F800000#32
  let main_v5 : FVec F S1000x8x512 .f32 := broadcastInDim S1000x8x512 ![] bcast_S_S1000x8x512 main_cst_0
  let main_v6 : IVec S1000x8x512 1 := cmpf .olt main_v4 main_v5
  let main_c_1 : IVec S_ 1 := constantI S_ 1 1#1
  let main_v7 : IVec S_ 1 := (fun x v => Host.reduce IntOp.andi x v reducesTo_S1000x8x512_S_d0_1_2 h_S_) main_v6 main_c_1
  let main_v8 : IVec S_ 1 := andi main_v3 main_v7
  main_v8
-- ==== Kernel.lean ====
abbrev S8192x512 : Shape := ⟨2, ![8192, 512]⟩
abbrev S1000x8x512 : Shape := ⟨3, ![1000, 8, 512]⟩
abbrev S_ : Shape := ⟨0, ![]⟩
abbrev S1024x8x512 : Shape := ⟨3, ![1024, 8, 512]⟩
abbrev S8x512x1024 : Shape := ⟨3, ![8, 512, 1024]⟩
abbrev S1024x8 : Shape := ⟨2, ![1024, 8]⟩
abbrev S8x1024 : Shape := ⟨2, ![8, 1024]⟩
abbrev S8x1x1024 : Shape := ⟨3, ![8, 1, 1024]⟩
abbrev S8192x1024 : Shape := ⟨2, ![8192, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1x1x1024 : Shape := ⟨3, ![1, 1, 1024]⟩
abbrev S1x1024 : Shape := ⟨2, ![1, 1024]⟩
abbrev S8192x1000 : Shape := ⟨2, ![8192, 1000]⟩

abbrev nBuf : Space → Nat
  | .hbm => 19
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S1000x8x512, .f32⟩
  | .hbm, ⟨2, _⟩ => ⟨S_, .i32⟩
  | .hbm, ⟨3, _⟩ => ⟨S_, .f32⟩
  | .hbm, ⟨4, _⟩ => ⟨S1024x8x512, .f32⟩
  | .hbm, ⟨5, _⟩ => ⟨S8x512x1024, .f32⟩
  | .hbm, ⟨6, _⟩ => ⟨S_, .f32⟩
  | .hbm, ⟨7, _⟩ => ⟨S8x512x1024, .f32⟩
  | .hbm, ⟨8, _⟩ => ⟨S8x512x1024, .f32⟩
  | .hbm, ⟨9, _⟩ => ⟨S8x512x1024, .bf16⟩
  | .hbm, ⟨10, _⟩ => ⟨S1024x8x512, .f32⟩
  | .hbm, ⟨11, _⟩ => ⟨S_, .f32⟩
  | .hbm, ⟨12, _⟩ => ⟨S1024x8, .f32⟩
  | .hbm, ⟨13, _⟩ => ⟨S8x1024, .f32⟩
  | .hbm, ⟨14, _⟩ => ⟨S8x1x1024, .f32⟩
  | .hbm, ⟨15, _⟩ => ⟨S8192x1024, .f32⟩
  | .hbm, ⟨16, _⟩ => ⟨S8192x1024, .f32⟩
  | .hbm, ⟨17, _⟩ => ⟨S8192x1000, .f32⟩
  | .hbm, ⟨18, _⟩ => ⟨S8192x1000, .f32⟩
  | .local _ .vmem, ⟨0, _⟩ => ⟨S512x512, .f32⟩
  | .local _ .vmem, ⟨1, _⟩ => ⟨S512x512, .f32⟩
  | .local _ .vmem, ⟨2, _⟩ => ⟨S8x512x1024, .bf16⟩
  | .local _ .vmem, ⟨3, _⟩ => ⟨S8x1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S1000x8x512_S1024x8x512_0240_000_000 : S1000x8x512.Pads (![0, 0, 0] : Fin 3 → Nat) ![24, 0, 0] ![0, 0, 0] S1024x8x512
  h_S_ : 0 < S_.numel
  transposes_S1024x8x512_S8x512x1024_1_2_0 : S1024x8x512.Transposes [1, 2, 0] S8x512x1024
  bcast_S_S8x512x1024 : S_.BroadcastsInDim S8x512x1024 (![] : Fin 0 → Fin S8x512x1024.rank)
  bitsLt_bf16_f32 : FTy.bits .bf16 < FTy.bits .f32
  reducesTo_S1024x8x512_S1024x8_d2 : S1024x8x512.ReducesTo [2] S1024x8
  transposes_S1024x8_S8x1024_1_0 : S1024x8.Transposes [1, 0] S8x1024
  bcast_S8x1024_S8x1x1024_0_2 : S8x1024.BroadcastsInDim S8x1x1024 (![0, 2] : Fin 2 → Fin S8x1x1024.rank)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S8x512x1024_S1x512x1024_0_0_0 : ∀ a, (![0, 0, 0] : Fin 3 → Nat) a + S1x512x1024.size a ≤ S8x512x1024.size a
  h_S1x512x1024 : 0 < S1x512x1024.numel
  shapeCasts_S1x512x1024_S512x1024 : S1x512x1024.ShapeCasts S512x1024
  inb_S8x1x1024_S1x1x1024_0_0_0 : ∀ a, (![0, 0, 0] : Fin 3 → Nat) a + S1x1x1024.size a ≤ S8x1x1024.size a
  h_S1x1x1024 : 0 < S1x1x1024.numel
  shapeCasts_S1x1x1024_S1x1024 : S1x1x1024.ShapeCasts S1x1024
  broadcasts_S512x1_S512x1024 : S512x1.Broadcasts S512x1024
  broadcasts_S1x1024_S512x1024 : S1x1024.Broadcasts S512x1024
  inb_S8x512x1024_S1x512x1024_1_0_0 : ∀ a, (![1, 0, 0] : Fin 3 → Nat) a + S1x512x1024.size a ≤ S8x512x1024.size a
  inb_S8x1x1024_S1x1x1024_1_0_0 : ∀ a, (![1, 0, 0] : Fin 3 → Nat) a + S1x1x1024.size a ≤ S8x1x1024.size a
  inb_S8x512x1024_S1x512x1024_2_0_0 : ∀ a, (![2, 0, 0] : Fin 3 → Nat) a + S1x512x1024.size a ≤ S8x512x1024.size a
  inb_S8x1x1024_S1x1x1024_2_0_0 : ∀ a, (![2, 0, 0] : Fin 3 → Nat) a + S1x1x1024.size a ≤ S8x1x1024.size a
  inb_S8x512x1024_S1x512x1024_3_0_0 : ∀ a, (![3, 0, 0] : Fin 3 → Nat) a + S1x512x1024.size a ≤ S8x512x1024.size a
  inb_S8x1x1024_S1x1x1024_3_0_0 : ∀ a, (![3, 0, 0] : Fin 3 → Nat) a + S1x1x1024.size a ≤ S8x1x1024.size a
  inb_S8x512x1024_S1x512x1024_4_0_0 : ∀ a, (![4, 0, 0] : Fin 3 → Nat) a + S1x512x1024.size a ≤ S8x512x1024.size a
  inb_S8x1x1024_S1x1x1024_4_0_0 : ∀ a, (![4, 0, 0] : Fin 3 → Nat) a + S1x1x1024.size a ≤ S8x1x1024.size a
  inb_S8x512x1024_S1x512x1024_5_0_0 : ∀ a, (![5, 0, 0] : Fin 3 → Nat) a + S1x512x1024.size a ≤ S8x512x1024.size a
  inb_S8x1x1024_S1x1x1024_5_0_0 : ∀ a, (![5, 0, 0] : Fin 3 → Nat) a + S1x1x1024.size a ≤ S8x1x1024.size a
  inb_S8x512x1024_S1x512x1024_6_0_0 : ∀ a, (![6, 0, 0] : Fin 3 → Nat) a + S1x512x1024.size a ≤ S8x512x1024.size a
  inb_S8x1x1024_S1x1x1024_6_0_0 : ∀ a, (![6, 0, 0] : Fin 3 → Nat) a + S1x1x1024.size a ≤ S8x1x1024.size a
  inb_S8x512x1024_S1x512x1024_7_0_0 : ∀ a, (![7, 0, 0] : Fin 3 → Nat) a + S1x512x1024.size a ≤ S8x512x1024.size a
  inb_S8x1x1024_S1x1x1024_7_0_0 : ∀ a, (![7, 0, 0] : Fin 3 → Nat) a + S1x1x1024.size a ≤ S8x1x1024.size a
  inb_S512x1024_S512x1024_0_0 : ∀ a, (![0, 0] : Fin 2 → Nat) a + S512x1024.size a ≤ S512x1024.size a
  h_S512x1024 : 0 < S512x1024.numel
  slices_S8192x1024_S8192x1000_0_0 : S8192x1024.Slices ![0, 0] S8192x1000
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x1024.size a ≤ S8x512x1024.size a
  hwx0_1 : ∀ i : grid0.Coords, EltTy.bits .bf16 = 32 ∨ (Rect.block (s := S8x512x1024) S8x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x1024.size a ≤ S8x1x1024.size a
  hwx0_2 : ∀ i : grid0.Coords, EltTy.bits .f32 = 32 ∨ (Rect.block (s := S8x1x1024) S8x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8x1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S1000x8x512 : Shape := ⟨3, ![1000, 8, 512]⟩
abbrev S_ : Shape := ⟨0, ![]⟩
abbrev S8192 : Shape := ⟨1, ![8192]⟩
abbrev S1000x8 : Shape := ⟨2, ![1000, 8]⟩
abbrev S8192x1000x8 : Shape := ⟨3, ![8192, 1000, 8]⟩
abbrev S8192x1x1 : Shape := ⟨3, ![8192, 1, 1]⟩
abbrev S1x1000x8 : Shape := ⟨3, ![1, 1000, 8]⟩
abbrev S8192x1000 : Shape := ⟨2, ![8192, 1000]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1000x8x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S1000x8x512, .f32⟩
  | .hbm, ⟨6, _⟩ => ⟨S_, .f32⟩
  | .hbm, ⟨7, _⟩ => ⟨S1000x8, .f32⟩
  | .hbm, ⟨8, _⟩ => ⟨S8192x1000x8, .f32⟩
  | .hbm, ⟨9, _⟩ => ⟨S8192x1x1, .f32⟩
  | .hbm, ⟨10, _⟩ => ⟨S_, .f32⟩
  | .hbm, ⟨11, _⟩ => ⟨S8192x1000x8, .f32⟩
  | .hbm, ⟨12, _⟩ => ⟨S8192x1000x8, .f32⟩
  | .hbm, ⟨13, _⟩ => ⟨S8192x1000x8, .f32⟩
  | .hbm, ⟨14, _⟩ => ⟨S8192x1000x8, .f32⟩
  | .hbm, ⟨15, _⟩ => ⟨S1x1000x8, .f32⟩
  | .hbm, ⟨16, _⟩ => ⟨S8192x1000x8, .f32⟩
  | .hbm, ⟨17, _⟩ => ⟨S8192x1000x8, .f32⟩
  | .hbm, ⟨18, _⟩ => ⟨S_, .f32⟩
  | .hbm, ⟨19, _⟩ => ⟨S8192x1000, .f32⟩
  | .hbm, ⟨20, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S1000x8x512_S1000x8_d2 : S1000x8x512.ReducesTo [2] S1000x8
  bcast_S8192_S8192x1x1_0 : S8192.BroadcastsInDim S8192x1x1 (![0] : Fin 1 → Fin S8192x1x1.rank)
  bcast_S_S8192x1000x8 : S_.BroadcastsInDim S8192x1000x8 (![] : Fin 0 → Fin S8192x1000x8.rank)
  bcast_S8192x1x1_S8192x1000x8_0_1_2 : S8192x1x1.BroadcastsInDim S8192x1000x8 (![0, 1, 2] : Fin 3 → Fin S8192x1000x8.rank)
  bcast_S1000x8_S1x1000x8_1_2 : S1000x8.BroadcastsInDim S1x1000x8 (![1, 2] : Fin 2 → Fin S1x1000x8.rank)
  bcast_S1x1000x8_S8192x1000x8_0_1_2 : S1x1000x8.BroadcastsInDim S8192x1000x8 (![0, 1, 2] : Fin 3 → Fin S8192x1000x8.rank)
  reducesTo_S8192x1000x8_S8192x1000_d2 : S8192x1000x8.ReducesTo [2] S8192x1000
  dot_S8192x512_S1000x8x512_S8192x1000x8_1_2_0_01_n_n_wf : DotDims.WF S8192x512 S1000x8x512 S8192x1000x8 [1] [2] [0] [0, 1] [] []

variable [Facts₀]

def dot_S8192x512_S1000x8x512_S8192x1000x8_1_2_0_01_n_n : DotDims S8192x512 S1000x8x512 S8192x1000x8 where
  lhsContracting := [1]
  rhsContracting := [2]
  lhsNonContracting := [0]
  rhsNonContracting := [0, 1]
  lhsBatch := []
  rhsBatch := []
  wf := dot_S8192x512_S1000x8x512_S8192x1000x8_1_2_0_01_n_n_wf

class Facts : Prop extends Facts₀ where

variable [Facts]
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibDistExpansion.lean ====
/-
  The mathematics that joins the two programs, on the extended reals.

  Both programs compute, for a latent row x and a prototype row y of the same width, the squared Euclidean distance
  by its expansion  |x|^2 - 2 x.y + |y|^2, and then the smallest of eight such numbers. They group the expansion
  differently: one adds |x|^2 + |y|^2 first and then the sum over k of x_k * (-2 * y_k); the other subtracts
  2 * (sum over k of x_k * y_k) from |x|^2 and then adds |y|^2. Moving the factor -2 through a sum and turning a
  subtraction into the addition of a negative are laws of the real numbers, not of the extended reals, so the
  identity is proved for rows of real numbers: the sums are pushed inside the coercion and the rest is ring
  arithmetic. The smallest of eight numbers is written once as seven nested binary minima (the left-leaning chain)
  and once as the fold of min from the top element; they agree by the universal property of a minimum.
  Last, the four literal words the programs use are read as extended reals: 0, -2, 2 and +infinity.
-/
import Idealize.ShloMosaic.PureOps.Ideal
import Mathlib.Data.Finset.Fold

noncomputable section

open scoped BigOperators

namespace Cert.LibDistExpansion

open Idealize.ShloMosaic

/-! ## The smallest of eight -/

/-- Seven nested binary minima, leaning left. -/
def min8 (f : Fin 8 → EReal) : EReal :=
  min (min (min (min (min (min (min (f 0) (f 1)) (f 2)) (f 3)) (f 4)) (f 5)) (f 6)) (f 7)

/-- The fold of min from the top element over the eight entries is the nested minimum: each is below every entry,
    and each is the largest such number. -/
theorem fold_min_eq_min8 (f : Fin 8 → EReal) : (Finset.univ : Finset (Fin 8)).fold min ⊤ f = min8 f := by
  apply le_antisymm
  · have h : ∀ p : Fin 8, (Finset.univ : Finset (Fin 8)).fold min ⊤ f ≤ f p := fun p =>
      (Finset.fold_min_le _).mpr (Or.inr ⟨p, Finset.mem_univ p, le_refl _⟩)
    unfold min8
    exact le_min (le_min (le_min (le_min (le_min (le_min (le_min (h 0) (h 1)) (h 2)) (h 3)) (h 4)) (h 5)) (h 6)) (h 7)
  · refine (Finset.le_fold_min _).mpr ⟨le_top, fun p _ => ?_⟩
    unfold min8
    fin_cases p <;>
      repeat' first
        | exact le_refl _
        | (apply min_le_of_right_le; exact le_refl _)
        | apply min_le_of_left_le

/-- Two families that agree entry by entry have the same nested minimum. -/
theorem min8_congr {f g : Fin 8 → EReal} (h : ∀ p, f p = g p) : min8 f = min8 g := by
  rw [show f = g from funext h]

/-! ## Finite sums of real numbers inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The expansion of the squared distance, in its two groupings -/

/-- (|x|^2 + |y|^2) + sum_k x_k * (a * y_k): the grouping with the factor inside the sum. -/
def distIn {D : ℕ} (x y : Fin D → EReal) (a : EReal) : EReal :=
  ((∑ k, x k * x k) + ∑ k, y k * y k) + ∑ k, x k * (a * y k)

/-- (|x|^2 - b * sum_k x_k * y_k) + |y|^2: the grouping with the factor outside the sum. -/
def distOut {D : ℕ} (x y : Fin D → EReal) (b : EReal) : EReal :=
  ((∑ k, x k * x k) - b * ∑ k, x k * y k) + ∑ k, y k * y k

/-- On rows of real numbers the two groupings agree, with a = -2 and b = 2. -/
theorem distIn_eq_distOut {D : ℕ} (x y : Fin D → EReal) (hx : ∀ k, ∃ r : ℝ, x k = (r : EReal))
    (hy : ∀ k, ∃ r : ℝ, y k = (r : EReal)) :
    distIn x y ((-2 : ℝ) : EReal) = distOut x y ((2 : ℝ) : EReal) := by
  choose xr hxr using hx
  choose yr hyr using hy
  obtain rfl : x = fun k => (xr k : EReal) := funext hxr
  obtain rfl : y = fun k => (yr k : EReal) := funext hyr
  unfold distIn distOut
  simp only [← EReal.coe_mul, ← coe_sum, ← EReal.coe_add, ← EReal.coe_sub]
  refine congrArg (fun r : ℝ => (r : EReal)) ?_
  have h : ∑ k, xr k * (-2 * yr k) = -2 * ∑ k, xr k * yr k := by
    rw [Finset.mul_sum]
    exact Finset.sum_congr rfl fun k _ => by ring
  rw [h]
  ring

/-! ## The literal words -/

theorem word_zero : Ideal.ofBits .f32 0x00000000#32 = 0 := by simp [Ideal.ofBits, Ideal.ieee]
theorem word_neg_two : Ideal.ofBits .f32 0xC0000000#32 = ((-2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_top : Ideal.ofBits .f32 0x7F800000#32 = ⊤ := by simp [Ideal.ofBits, Ideal.ieee]

end Cert.LibDistExpansion

end
-- ==== Proof.KernelTile.lean ====
/-
  What the kernel body leaves in its two output tiles, entry by entry, at the ideal instance.

  The body holds a [512, 512] tile x of latent rows, the whole [8, 512, 1024] array w of scaled prototypes (p, k, c)
  and the whole [8, 1, 1024] array n of prototype norms (p, 0, c). For each of the eight prototype slots p it forms

      d_p(r, c) = (|x_r|^2 + n(p, 0, c)) + sum_k x(r, k) * w(p, k, c),

  the row norm |x_r|^2 = sum_k x(r, k)^2 computed once as a column, the product a [512,512] x [512,1024] matrix
  product into a zero accumulator (the narrowing of x to bf16 is the identity on extended reals). The second output
  tile is the left-leaning chain of binary minima of d_0 .. d_7; the first is zero minus that.
  This module reads each of those operations at an entry (r, c): a slice of w or n at slot p read through its
  leading unit axis, the broadcasts of a column and of a row, the matrix product as a sum over k, and finally the
  whole payload as the minimum of eight.
-/
import proofs.«116413_j47845935677591_2_alg».proof.Proof.Gen.KernelIdeal.Frame
import proofs.«116413_j47845935677591_2_alg».proof.Proof.LibReduceRead
import proofs.«116413_j47845935677591_2_alg».proof.Proof.LibLayout
import proofs.«116413_j47845935677591_2_alg».proof.Proof.LibDistExpansion
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.LibDistExpansion

/-! ## The row norms -/

/-- The column of row norms at row r: the sum over the lanes of the squares of row r. -/
theorem rowNorm_apply (x : Vec Ideal S512x512 .f32) (r : Fin 512) :
    k0_pay3 x (ix2 r (0 : Fin 1)) = ∑ k : Fin 512, x (ix2 r k) * x (ix2 r k) := by
  unfold k0_pay3
  refine (Cert.LibLayout.shapeCast_a_a1_apply _ shapeCasts_S512_S512x1 r 0).trans ?_
  exact Cert.LibReduceRead.rowSum_apply (mulf x x) reduces_S512x512_S512 (.inl rfl) rfl r

/-! ## The matrix product -/

theorem lhs_0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs_1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem rhs_0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem rhs_1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product into a zero accumulator at (r, c): the sum over k of a(r, k) * b(k, c). -/
theorem product_apply (a : FVec Ideal S512x512 .bf16) (b : FVec Ideal S512x1024 .bf16) (r : Fin 512) (c : Fin 1024) :
    FloatOps.matmul dot_S512x512_S512x1024_S512x1024_1_0_0_1_n_n none a b (constant S512x1024 .f32 0x00000000#32) (ix2 r c)
      = ∑ k : Fin 512, a (ix2 r k) * b (ix2 k c) := by
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r c) ((contrEquiv1 dot_S512x512_S512x1024_S512x1024_1_0_0_1_n_n 512 rfl rfl).symm k) = ix2 r k := funext fun ax => Fin.ext (by
    match ax with
    | ⟨0, _⟩ => exact lhs_0 _ _
    | ⟨1, _⟩ => exact (lhs_1 _ _).trans hk)
  have er : dot_S512x512_S512x1024_S512x1024_1_0_0_1_n_n.rhsIdx (ix2 r c) ((contrEquiv1 dot_S512x512_S512x1024_S512x1024_1_0_0_1_n_n 512 rfl rfl).symm k) = ix2 k c := funext fun ax => Fin.ext (by
    match ax with
    | ⟨0, _⟩ => exact (rhs_0 _ _).trans hk
    | ⟨1, _⟩ => exact rhs_1 _ _)
  rw [el, er]

/-! ## The slabs of the two resident arrays -/

/-- Slot p of the scaled prototypes, loaded as a [1, 512, 1024] slab and viewed [512, 1024], at (k, c): the array
    at (p, k, c). -/
theorem protoSlab_apply (w : Vec Ideal S8x512x1024 .bf16) (p : Fin 8)
    (inb : ∀ a, (![p.val, 0, 0] : Fin 3 → Nat) a + S1x512x1024.size a ≤ S8x512x1024.size a) (k : Fin 512) (c : Fin 1024) :
    shapeCast S512x1024 (View.ld w (Rect.unit (s := S8x512x1024) ![p.val, 0, 0] S1x512x1024.size inb))
        shapeCasts_S1x512x1024_S512x1024 (ix2 k c) = w (ix3 p k c) := by
  refine (Cert.LibLayout.shapeCast_abc_dc_apply _ shapeCasts_S1x512x1024_S512x1024 k c (0 : Fin 1) k (by simp)).trans ?_
  show w ((Rect.unit (s := S8x512x1024) ![p.val, 0, 0] S1x512x1024.size inb).idx (ix3 (0 : Fin 1) k c)) = w (ix3 p k c)
  refine congrArg w (funext fun a => Fin.ext ?_)
  match a with
  | ⟨0, _⟩ => show p.val + 1 * 0 = p.val; omega
  | ⟨1, _⟩ => show 0 + 1 * k.val = k.val; omega
  | ⟨2, _⟩ => show 0 + 1 * c.val = c.val; omega

/-- Slot p of the prototype norms, loaded as a [1, 1, 1024] slab, viewed as the row [1, 1024] and repeated down the
    512 rows, at (r, c): the array at (p, 0, c). -/
theorem normSlab_apply (n : Vec Ideal S8x1x1024 .f32) (p : Fin 8)
    (inb : ∀ a, (![p.val, 0, 0] : Fin 3 → Nat) a + S1x1x1024.size a ≤ S8x1x1024.size a) (r : Fin 512) (c : Fin 1024) :
    broadcastTo S512x1024 (shapeCast S1x1024 (View.ld n (Rect.unit (s := S8x1x1024) ![p.val, 0, 0] S1x1x1024.size inb))
        shapeCasts_S1x1x1024_S1x1024) broadcasts_S1x1024_S512x1024 (ix2 r c) = n (ix3 p (0 : Fin 1) c) := by
  refine (broadcastTo_apply _ broadcasts_S1x1024_S512x1024 (ix2 r c) (ix2 (0 : Fin 1) c) fun a => ?_).trans ?_
  · match a with
    | ⟨0, _⟩ => rfl
    | ⟨1, _⟩ => rfl
  refine (Cert.LibLayout.shapeCast_abc_dc_apply _ shapeCasts_S1x1x1024_S1x1024 (0 : Fin 1) c (0 : Fin 1) (0 : Fin 1) (by simp)).trans ?_
  show n ((Rect.unit (s := S8x1x1024) ![p.val, 0, 0] S1x1x1024.size inb).idx (ix3 (0 : Fin 1) (0 : Fin 1) c)) = n (ix3 p (0 : Fin 1) c)
  refine congrArg n (funext fun a => Fin.ext ?_)
  match a with
  | ⟨0, _⟩ => show p.val + 1 * 0 = p.val; omega
  | ⟨1, _⟩ => show 0 + 1 * 0 = 0; omega
  | ⟨2, _⟩ => show 0 + 1 * c.val = c.val; omega

/-! ## One prototype slot's distance tile -/

/-- The tile (norm column + slot's norm row) + (rows x slot's slab), as the body spells it for every slot. -/
def distTile (nrm : FVec Ideal S512x1 .f32) (a : FVec Ideal S512x512 .bf16) (w : FVec Ideal S1x512x1024 .bf16)
    (b : FVec Ideal S1x1x1024 .f32) : FVec Ideal S512x1024 .f32 :=
  addf (addf (broadcastTo S512x1024 nrm broadcasts_S512x1_S512x1024)
      (broadcastTo S512x1024 (shapeCast S1x1024 b shapeCasts_S1x1x1024_S1x1024) broadcasts_S1x1024_S512x1024))
    (matmul dot_S512x512_S512x1024_S512x1024_1_0_0_1_n_n none a (shapeCast S512x1024 w shapeCasts_S1x512x1024_S512x1024) (constant S512x1024 .f32 0x00000000#32))

/-- At (r, c), for slot p of the resident arrays: (nrm(r, 0) + n(p, 0, c)) + sum_k a(r, k) * w(p, k, c). -/
theorem distTile_apply (nrm : FVec Ideal S512x1 .f32) (a : FVec Ideal S512x512 .bf16) (w : Vec Ideal S8x512x1024 .bf16)
    (n : Vec Ideal S8x1x1024 .f32) (p : Fin 8)
    (inbw : ∀ a, (![p.val, 0, 0] : Fin 3 → Nat) a + S1x512x1024.size a ≤ S8x512x1024.size a)
    (inbn : ∀ a, (![p.val, 0, 0] : Fin 3 → Nat) a + S1x1x1024.size a ≤ S8x1x1024.size a) (r : Fin 512) (c : Fin 1024) :
    distTile nrm a (View.ld w (Rect.unit (s := S8x512x1024) ![p.val, 0, 0] S1x512x1024.size inbw))
        (View.ld n (Rect.unit (s := S8x1x1024) ![p.val, 0, 0] S1x1x1024.size inbn)) (ix2 r c)
      = (nrm (ix2 r (0 : Fin 1)) + n (ix3 p (0 : Fin 1) c)) + ∑ k : Fin 512, a (ix2 r k) * w (ix3 p k c) := by
  unfold distTile
  exact congrArg₂ (· + ·)
    (congrArg₂ (· + ·) (Cert.LibLayout.broadcastTo_a1_ab_apply nrm broadcasts_S512x1_S512x1024 r c) (normSlab_apply n p inbn r c))
    ((product_apply a _ r c).trans (Finset.sum_congr rfl fun k _ => congrArg (a (ix2 r k) * ·) (protoSlab_apply w p inbw k c)))

/-! ## The whole payload -/

/-- The second output tile at (r, c): the smallest, over the eight slots p, of
    (|x_r|^2 + n(p, 0, c)) + sum_k x(r, k) * w(p, k, c). -/
theorem minTile_apply (x : Vec Ideal S512x512 .f32) (w : Vec Ideal S8x512x1024 .bf16) (n : Vec Ideal S8x1x1024 .f32)
    (r : Fin 512) (c : Fin 1024) :
    k0_pay1 (k0_pay3 x) (k0_pay4 x)
        (k0_pay6 (k0_pay3 x) (k0_pay4 x)
          (k0_pay5 x (View.ld w r0_1) (View.ld n r0_2) (View.ld w r0_3) (View.ld n r0_4) (View.ld w r0_5) (View.ld n r0_6))
          (View.ld w r0_7) (View.ld n r0_8) (View.ld w r0_9) (View.ld n r0_10) (View.ld w r0_11) (View.ld n r0_12))
        (k0_pay7 (k0_pay4 x) (View.ld w r0_13)) (View.ld n r0_14) (View.ld w r0_15) (View.ld n r0_16) (ix2 r c)
      = min8 fun p => ((∑ k : Fin 512, x (ix2 r k) * x (ix2 r k)) + n (ix3 p (0 : Fin 1) c))
          + ∑ k : Fin 512, x (ix2 r k) * w (ix3 p k c) := by
  have T : ∀ (p : Fin 8) inbw inbn,
      distTile (k0_pay3 x) (k0_pay4 x) (View.ld w (Rect.unit (s := S8x512x1024) ![p.val, 0, 0] S1x512x1024.size inbw))
          (View.ld n (Rect.unit (s := S8x1x1024) ![p.val, 0, 0] S1x1x1024.size inbn)) (ix2 r c)
        = ((∑ k : Fin 512, x (ix2 r k) * x (ix2 r k)) + n (ix3 p (0 : Fin 1) c))
          + ∑ k : Fin 512, x (ix2 r k) * w (ix3 p k c) := fun p inbw inbn => by
    rw [distTile_apply, rowNorm_apply]; rfl
  show min (min (min (min (min (min (min
      (distTile (k0_pay3 x) (k0_pay4 x) (View.ld w r0_1) (View.ld n r0_2) (ix2 r c))
      (distTile (k0_pay3 x) (k0_pay4 x) (View.ld w r0_3) (View.ld n r0_4) (ix2 r c)))
      (distTile (k0_pay3 x) (k0_pay4 x) (View.ld w r0_5) (View.ld n r0_6) (ix2 r c)))
      (distTile (k0_pay3 x) (k0_pay4 x) (View.ld w r0_7) (View.ld n r0_8) (ix2 r c)))
      (distTile (k0_pay3 x) (k0_pay4 x) (View.ld w r0_9) (View.ld n r0_10) (ix2 r c)))
      (distTile (k0_pay3 x) (k0_pay4 x) (View.ld w r0_11) (View.ld n r0_12) (ix2 r c)))
      (distTile (k0_pay3 x) (k0_pay4 x) (View.ld w r0_13) (View.ld n r0_14) (ix2 r c)))
      (distTile (k0_pay3 x) (k0_pay4 x) (View.ld w r0_15) (View.ld n r0_16) (ix2 r c)) = _
  unfold min8
  exact congrArg₂ min (congrArg₂ min (congrArg₂ min (congrArg₂ min (congrArg₂ min (congrArg₂ min (congrArg₂ min
    (T 0 _ _) (T 1 _ _)) (T 2 _ _)) (T 3 _ _)) (T 4 _ _)) (T 5 _ _)) (T 6 _ _)) (T 7 _ _)

/-- The first output tile at (r, c): zero minus the second. -/
theorem negTile_apply (nrm : FVec Ideal S512x1 .f32) (a : FVec Ideal S512x512 .bf16) (v63 v66 : FVec Ideal S512x1024 .f32)
    (v67 : Vec Ideal S1x1x1024 .f32) (v74 : Vec Ideal S1x512x1024 .bf16) (v77 : Vec Ideal S1x1x1024 .f32) (i : S512x1024.Idx) :
    k0_pay2 nrm a v63 v66 v67 v74 v77 i = 0 - k0_pay1 nrm a v63 v66 v67 v74 v77 i := by
  show Ideal.ofBits .f32 0x00000000#32 - _ = _
  rw [word_zero]

end Cert.KernelIdeal.Tile

end
-- ==== Proof.OutputArrays.lean ====
/-
  The two [8192, 1024] output arrays after the region, each as one function of the three arrays the region reads.

  Grid point t stages rows 512 t .. 512 t + 511 of the latent array and the whole of the two resident arrays, and
  writes back rows 512 t .. 512 t + 511 (all 1024 columns) of both outputs. Entry (b, c) of the second output is

      minEntry(b, c) = min over the eight slots p of (|z_b|^2 + N(p, 0, c)) + sum_k z(b, k) * W(p, k, c),

  and of the first output zero minus that: the tile's entry (r, c) at point t is exactly this with b = 512 t + r,
  because the latent tile's row r is row 512 t + r of the array and the resident tiles are the arrays themselves.
  The sixteen row blocks cover the array (row b lies in block b / 512), so each output array ends as that function.
-/
import proofs.«116413_j47845935677591_2_alg».proof.Proof.Gen.KernelIdeal.Frame
import proofs.«116413_j47845935677591_2_alg».proof.Proof.KernelTile
import Idealize.ShloMosaic.Lib.Pipeline.Value
import Idealize.ShloMosaic.Lib.ValueIdx

noncomputable section

open scoped BigOperators

namespace Cert.KernelIdeal.Arrays

open Cert.KernelIdeal Cert.KernelIdeal.Gen Idealize.ShloMosaic Idealize.ShloMosaic.TcCoe Idealize.SL.Sem
  Idealize.ShloMosaic.ValueIdx Cert.LibDistExpansion
open Idealize.ShloMosaic.Pipeline (Dat)

/-! ## The arrays' entries -/

/-- Entry (b, c) of the minimum array, from the latent array z, the scaled prototypes W and the norms N. -/
def minEntry (z : S8192x512.Idx → EReal) (W : S8x512x1024.Idx → EReal) (N : S8x1x1024.Idx → EReal) (b : Fin 8192)
    (c : Fin 1024) : EReal :=
  min8 fun p => ((∑ k : Fin 512, z (ix2 b k) * z (ix2 b k)) + N (ix3 p (0 : Fin 1) c))
    + ∑ k : Fin 512, z (ix2 b k) * W (ix3 p k c)

/-- The minimum array. -/
def minArr (z : S8192x512.Idx → EReal) (W : S8x512x1024.Idx → EReal) (N : S8x1x1024.Idx → EReal) :
    S8192x1024.Idx → EReal :=
  fun i => minEntry z W N ⟨(i 0).val, (i 0).isLt⟩ ⟨(i 1).val, (i 1).isLt⟩

/-- The negated array. -/
def negArr (z : S8192x512.Idx → EReal) (W : S8x512x1024.Idx → EReal) (N : S8x1x1024.Idx → EReal) :
    S8192x1024.Idx → EReal :=
  fun i => 0 - minArr z W N i

/-! ## The index maps over the grid -/

theorem zeros2 : (![0, 0] : Fin 2 → Nat) = fun _ => 0 := funext fun a => by fin_cases a <;> rfl

/-- The latent window and both output windows sit on the same row block, below 16, at column block 0; the resident
    windows sit at block 0 on every axis. -/
theorem idx_facts : ∀ t : Fin cfg0.N,
    win0_0.index t (0 : Fin 2) = win0_4.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = win0_4.index t (0 : Fin 2) ∧ win0_3.index t (1 : Fin 2) = 0
    ∧ win0_4.index t (1 : Fin 2) = 0 ∧ win0_4.index t (0 : Fin 2) ≤ 15 :=
  (by decide +kernel : ∀ t : Fin grid0.N, _)

/-- Every row block is some point's. -/
theorem idx_onto : ∀ q : Fin 16, ∃ t : Fin cfg0.N, win0_4.index t = ![q.val, 0] ∧ win0_3.index t = ![q.val, 0] :=
  (by decide +kernel : ∀ q : Fin 16, ∃ t : Fin grid0.N, win0_4.index t = ![q.val, 0] ∧ win0_3.index t = ![q.val, 0])

variable (m : (ℓ : Loc nD τ sig) → Buf (Elt Ideal) ℓ)

/-! ## What a point's tiles hold, against the arrays -/

/-- If row r of the tile x is row R of z, and column cc of the resident tiles is column C of W and N, the minimum of
    eight formed from the tiles at (r, cc) is the arrays' entry (R, C). -/
theorem entry_of_tiles (x : S512x512.Idx → EReal) (w : S8x512x1024.Idx → EReal) (n : S8x1x1024.Idx → EReal)
    (z : S8192x512.Idx → EReal) (W : S8x512x1024.Idx → EReal) (N : S8x1x1024.Idx → EReal)
    (r : Fin 512) (cc : Fin 1024) (R : Fin 8192) (C : Fin 1024)
    (hx : ∀ k : Fin 512, x (ix2 r k) = z (ix2 R k))
    (hw : ∀ (p : Fin 8) (k : Fin 512), w (ix3 p k cc) = W (ix3 p k C))
    (hn : ∀ p : Fin 8, n (ix3 p (0 : Fin 1) cc) = N (ix3 p (0 : Fin 1) C)) :
    (min8 fun p => ((∑ k : Fin 512, x (ix2 r k) * x (ix2 r k)) + n (ix3 p (0 : Fin 1) cc))
        + ∑ k : Fin 512, x (ix2 r k) * w (ix3 p k cc)) = minEntry z W N R C := by
  unfold minEntry
  refine min8_congr fun p => ?_
  exact congrArg₂ (· + ·)
    (congrArg₂ (· + ·) (Finset.sum_congr rfl fun k _ => by rw [hx k]) (hn p))
    (Finset.sum_congr rfl fun k _ => by rw [hx k, hw p k])

/-- The tiles' rows and columns at point t, against the arrays as the region finds them. -/
theorem tile_reads (c : Dev nD) (t : Fin cfg0.N) (r : Fin 512) (cc : Fin 1024)
    (hR : win0_4.index t (0 : Fin 2) * 512 + 1 * r.val < 8192) (hC : win0_4.index t (1 : Fin 2) * 1024 + 1 * cc.val < 1024) :
    (∀ k : Fin 512, iblk m c 0 t (ix2 r k)
        = V m c main_arg0 (ix2 (⟨win0_4.index t (0 : Fin 2) * 512 + 1 * r.val, hR⟩ : Fin 8192) k))
    ∧ (∀ (p : Fin 8) (k : Fin 512), iblk m c 1 t (ix3 p k cc)
        = V m c main_v4 (ix3 p k (⟨win0_4.index t (1 : Fin 2) * 1024 + 1 * cc.val, hC⟩ : Fin 1024)))
    ∧ (∀ p : Fin 8, iblk m c 2 t (ix3 p (0 : Fin 1) cc)
        = V m c main_v8 (ix3 p (0 : Fin 1) (⟨win0_4.index t (1 : Fin 2) * 1024 + 1 * cc.val, hC⟩ : Fin 1024))) := by
  obtain ⟨e00, e01, e10, e11, e12, e20, e21, e22, e30, e31, e41, e4⟩ := idx_facts t
  refine ⟨fun k => ?_, fun p k => ?_, fun p => ?_⟩
  · show V m c main_arg0 (((cfg0.win 0).blk t).view.emb (ix2 r k)) = _
    refine congrArg (V m c main_arg0) (funext fun a => Fin.ext ?_)
    match a with
    | ⟨0, _⟩ => show win0_0.index t (0 : Fin 2) * 512 + 1 * r.val = win0_4.index t (0 : Fin 2) * 512 + 1 * r.val; rw [e00]
    | ⟨1, _⟩ => show win0_0.index t (1 : Fin 2) * 512 + 1 * k.val = k.val; rw [e01]; omega
  · show V m c main_v4 (((cfg0.win 1).blk t).view.emb (ix3 p k cc)) = _
    refine congrArg (V m c main_v4) (funext fun a => Fin.ext ?_)
    match a with
    | ⟨0, _⟩ => show win0_1.index t (0 : Fin 3) * 8 + 1 * p.val = p.val; rw [e10]; omega
    | ⟨1, _⟩ => show win0_1.index t (1 : Fin 3) * 512 + 1 * k.val = k.val; rw [e11]; omega
    | ⟨2, _⟩ => show win0_1.index t (2 : Fin 3) * 1024 + 1 * cc.val = win0_4.index t (1 : Fin 2) * 1024 + 1 * cc.val; rw [e12, e41]
  · show V m c main_v8 (((cfg0.win 2).blk t).view.emb (ix3 p (0 : Fin 1) cc)) = _
    refine congrArg (V m c main_v8) (funext fun a => Fin.ext ?_)
    match a with
    | ⟨0, _⟩ => show win0_2.index t (0 : Fin 3) * 8 + 1 * p.val = p.val; rw [e20]; omega
    | ⟨1, _⟩ => show win0_2.index t (1 : Fin 3) * 1 + 1 * 0 = 0; rw [e21]
    | ⟨2, _⟩ => show win0_2.index t (2 : Fin 3) * 1024 + 1 * cc.val = win0_4.index t (1 : Fin 2) * 1024 + 1 * cc.val; rw [e22, e41]

/-- The minimum tile at point t, entry by entry, is the array's entries on the point's rows. -/
theorem tile4_eq (c : Dev nD) (t : Fin cfg0.N) (r : Fin 512) (cc : Fin 1024)
    (hR : win0_4.index t (0 : Fin 2) * 512 + 1 * r.val < 8192) (hC : win0_4.index t (1 : Fin 2) * 1024 + 1 * cc.val < 1024) :
    k0_pay1 (k0_pay3 (iblk m c 0 t)) (k0_pay4 (iblk m c 0 t))
        (k0_pay6 (k0_pay3 (iblk m c 0 t)) (k0_pay4 (iblk m c 0 t))
          (k0_pay5 (iblk m c 0 t) (View.ld (iblk m c 1 t) r0_1) (View.ld (iblk m c 2 t) r0_2) (View.ld (iblk m c 1 t) r0_3)
            (View.ld (iblk m c 2 t) r0_4) (View.ld (iblk m c 1 t) r0_5) (View.ld (iblk m c 2 t) r0_6))
          (View.ld (iblk m c 1 t) r0_7) (View.ld (iblk m c 2 t) r0_8) (View.ld (iblk m c 1 t) r0_9)
          (View.ld (iblk m c 2 t) r0_10) (View.ld (iblk m c 1 t) r0_11) (View.ld (iblk m c 2 t) r0_12))
        (k0_pay7 (k0_pay4 (iblk m c 0 t)) (View.ld (iblk m c 1 t) r0_13)) (View.ld (iblk m c 2 t) r0_14)
        (View.ld (iblk m c 1 t) r0_15) (View.ld (iblk m c 2 t) r0_16) (ix2 r cc)
      = minEntry (V m c main_arg0) (V m c main_v4) (V m c main_v8) ⟨win0_4.index t (0 : Fin 2) * 512 + 1 * r.val, hR⟩
          ⟨win0_4.index t (1 : Fin 2) * 1024 + 1 * cc.val, hC⟩ := by
  obtain ⟨hx, hw, hn⟩ := tile_reads m c t r cc hR hC
  exact (Tile.minTile_apply (iblk m c 0 t) (iblk m c 1 t) (iblk m c 2 t) r cc).trans
    (entry_of_tiles (iblk m c 0 t) (iblk m c 1 t) (iblk m c 2 t) (V m c main_arg0) (V m c main_v4) (V m c main_v8) r cc
      ⟨win0_4.index t (0 : Fin 2) * 512 + 1 * r.val, hR⟩ ⟨win0_4.index t (1 : Fin 2) * 1024 + 1 * cc.val, hC⟩ hx hw hn)

/-- What point t writes back to the minimum array is block t of minArr. -/
theorem flushed4_eq (c : Dev nD) (t : Fin cfg0.N) :
    (dats m 0 c).flushed 4 t
      = ((cfg0.win 4).blk t).view.read (Elt Ideal) (minArr (V m c main_arg0) (V m c main_v4) (V m c main_v8)) := by
  show (cfg0.win 4).cut (grid0.coords t) ((dats m 0 c).after 4 t) = _
  rw [after0_4]
  unfold out0_4
  rw [View.canon_unit_zero zeros2]
  simp only [View.ld_unit_zero (S := S512x512) zeros2]
  obtain ⟨e00, e01, e10, e11, e12, e20, e21, e22, e30, e31, e41, e4⟩ := idx_facts t
  funext y
  have hy0 : (y 0).val < 512 := (y 0).isLt
  have hy1 : (y 1).val < 1024 := (y 1).isLt
  have hR : win0_4.index t (0 : Fin 2) * 512 + 1 * (y 0).val < 8192 := by omega
  have hC : win0_4.index t (1 : Fin 2) * 1024 + 1 * (y 1).val < 1024 := by omega
  have hy : y = ix2 (⟨(y 0).val, hy0⟩ : Fin 512) (⟨(y 1).val, hy1⟩ : Fin 1024) :=
    funext fun a => by match a with | ⟨0, _⟩ => rfl | ⟨1, _⟩ => rfl
  rw [hy]
  exact tile4_eq m c t ⟨(y 0).val, hy0⟩ ⟨(y 1).val, hy1⟩ hR hC

/-- What point t writes back to the negated array is block t of negArr. -/
theorem flushed3_eq (c : Dev nD) (t : Fin cfg0.N) :
    (dats m 0 c).flushed 3 t
      = ((cfg0.win 3).blk t).view.read (Elt Ideal) (negArr (V m c main_arg0) (V m c main_v4) (V m c main_v8)) := by
  show (cfg0.win 3).cut (grid0.coords t) ((dats m 0 c).after 3 t) = _
  rw [after0_3]
  unfold out0_3
  rw [View.canon_unit_zero zeros2]
  simp only [View.ld_unit_zero (S := S512x512) zeros2]
  obtain ⟨e00, e01, e10, e11, e12, e20, e21, e22, e30, e31, e41, e4⟩ := idx_facts t
  funext y
  have hy0 : (y 0).val < 512 := (y 0).isLt
  have hy1 : (y 1).val < 1024 := (y 1).isLt
  have hR : win0_4.index t (0 : Fin 2) * 512 + 1 * (y 0).val < 8192 := by omega
  have hC : win0_4.index t (1 : Fin 2) * 1024 + 1 * (y 1).val < 1024 := by omega
  have hR3 : win0_3.index t (0 : Fin 2) * 512 + 1 * (y 0).val < 8192 := by omega
  have hC3 : win0_3.index t (1 : Fin 2) * 1024 + 1 * (y 1).val < 1024 := by omega
  have hy : y = ix2 (⟨(y 0).val, hy0⟩ : Fin 512) (⟨(y 1).val, hy1⟩ : Fin 1024) :=
    funext fun a => by match a with | ⟨0, _⟩ => rfl | ⟨1, _⟩ => rfl
  refine (Tile.negTile_apply _ _ _ _ _ _ _ y).trans ?_
  rw [hy]
  refine (congrArg (0 - ·) (tile4_eq m c t ⟨(y 0).val, hy0⟩ ⟨(y 1).val, hy1⟩ hR hC)).trans ?_
  show _ = 0 - minEntry (V m c main_arg0) (V m c main_v4) (V m c main_v8)
      ⟨win0_3.index t (0 : Fin 2) * 512 + 1 * (y 0).val, hR3⟩ ⟨win0_3.index t (1 : Fin 2) * 1024 + 1 * (y 1).val, hC3⟩
  refine congrArg (0 - ·) (congrArg₂ (minEntry (V m c main_arg0) (V m c main_v4) (V m c main_v8)) (Fin.ext ?_) (Fin.ext ?_))
  · show win0_4.index t (0 : Fin 2) * 512 + 1 * (y 0).val = win0_3.index t (0 : Fin 2) * 512 + 1 * (y 0).val; rw [e30]
  · show win0_4.index t (1 : Fin 2) * 1024 + 1 * (y 1).val = win0_3.index t (1 : Fin 2) * 1024 + 1 * (y 1).val; rw [e31, e41]

/-! ## The cover -/

theorem mem_blk4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v9_1).slice (win0_4.rect t)).set ↔ _
  rw [View.set_slice_whole, Rect.mem_set_unit]
  exact Iff.rfl

theorem mem_blk3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v9_0).slice (win0_3.rect t)).set ↔ _
  rw [View.set_slice_whole, Rect.mem_set_unit]
  exact Iff.rfl

/-- Row b lies in row block b / 512. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht, -⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, -, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-! ## The arrays after the region -/

theorem final4 (c : Dev nD) :
    (dats m 0 c).arrAt 4 cfg0.N = minArr (V m c main_arg0) (V m c main_v4) (V m c main_v8) :=
  (dats m 0 c).arrAt_eq_of_cover 4 _ (fun t _ => flushed4_eq m c t) cover4

theorem final3 (c : Dev nD) :
    (dats m 0 c).arrAt 3 cfg0.N = negArr (V m c main_arg0) (V m c main_v4) (V m c main_v8) :=
  (dats m 0 c).arrAt_eq_of_cover 3 _ (fun t _ => flushed3_eq m c t) cover3

end Cert.KernelIdeal.Arrays

end
-- ==== Proof.HostPrefix.lean ====
/-
  The two resident arrays the host prepares before the region, as functions of the prototypes mu : [1000, 8, 512].

  The host pads mu with zeros to 1024 classes, and from the padded array builds
    * the scaled prototypes  W(p, k, c) = (-2) * mu_pad(c, p, k)   (a transposition to [8, 512, 1024], the product with
      the splat of the word for -2, and a narrowing that is the identity on extended reals), and
    * the prototype norms    N(p, 0, c) = 0 + sum_k mu_pad(c, p, k)^2   (a sum along the last axis of the squares, a
      transposition to [8, 1024] and a view as [8, 1, 1024]).
  The results only ever read classes c < 1000, where the padded array is mu itself; so both arrays are read here at
  such a class, in terms of mu alone.
-/
import proofs.«116413_j47845935677591_2_alg».proof.Proof.Gen.KernelIdeal.Frame
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal.Laws

noncomputable section

open scoped BigOperators

namespace Cert.KernelIdeal.Prefix

open Cert.KernelIdeal Cert.KernelIdeal.Gen Idealize.ShloMosaic Idealize.ShloMosaic.TcCoe Idealize.SL.Sem
  Idealize.ShloMosaic.StableHlo Idealize.ShloMosaic.ValueIdx

/-! ## The host's terms -/

/-- mu padded with the converted integer zero up to 1024 classes. -/
def padMu (mu : FVec Ideal S1000x8x512 .f32) : FVec Ideal S1024x8x512 .f32 :=
  pad S1024x8x512 ![0, 0, 0] ![24, 0, 0] ![0, 0, 0] mu (sitofp (F := Ideal) .f32 (constantI S_ 32 0#32))
    pads_S1000x8x512_S1024x8x512_0240_000_000 h_S_

/-- The scaled prototypes [8, 512, 1024]. -/
def protoArr (mu : FVec Ideal S1000x8x512 .f32) : FVec Ideal S8x512x1024 .bf16 :=
  truncf .bf16
    (mulf (broadcastInDim S8x512x1024 ![] bcast_S_S8x512x1024 (constant (F := Ideal) S_ .f32 0xC0000000#32))
      (transpose S8x512x1024 [1, 2, 0] (padMu mu) transposes_S1024x8x512_S8x512x1024_1_2_0))
    bitsLt_bf16_f32

/-- The prototype norms [8, 1, 1024]. -/
def normArr (mu : FVec Ideal S1000x8x512 .f32) : FVec Ideal S8x1x1024 .f32 :=
  broadcastInDim S8x1x1024 ![0, 2] bcast_S8x1024_S8x1x1024_0_2
    (transpose S8x1024 [1, 0]
      (Host.reduceAdd (F := Ideal) (mulf (padMu mu) (padMu mu)) (constant (F := Ideal) S_ .f32 0x00000000#32)
        reducesTo_S1024x8x512_S1024x8_d2 h_S_)
      transposes_S1024x8_S8x1024_1_0)

/-! ## What the region finds in the two windows' arrays -/

variable (m : (ℓ : Loc nD τ sig) → Buf (Elt Ideal) ℓ)

theorem V_main_v4 (c : Dev nD) :
    (V m c main_v4 : S8x512x1024.Idx → EReal) = protoArr (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

theorem V_main_v8 (c : Dev nD) :
    (V m c main_v8 : S8x1x1024.Idx → EReal) = normArr (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-! ## The two arrays at a class below 1000 -/

/-- Below class 1000 the padded array is mu. -/
theorem padMu_apply (mu : FVec Ideal S1000x8x512 .f32) (c : Fin 1024) (hc : c.val < 1000) (p : Fin 8) (k : Fin 512) :
    padMu mu (ix3 c p k) = mu (ix3 (⟨c.val, hc⟩ : Fin 1000) p k) := by
  unfold padMu
  refine pad_apply_of_inside _ _ _ mu _ pads_S1000x8x512_S1024x8x512_0240_000_000 h_S_ (ix3 c p k)
    (ix3 (⟨c.val, hc⟩ : Fin 1000) p k) fun a => ?_
  match a with
  | ⟨0, _⟩ => show c.val = 0 + c.val * (0 + 1); omega
  | ⟨1, _⟩ => show p.val = 0 + p.val * (0 + 1); omega
  | ⟨2, _⟩ => show k.val = 0 + k.val * (0 + 1); omega

/-- W(p, k, c) = (word for -2) * mu(c, p, k). -/
theorem protoArr_apply (mu : FVec Ideal S1000x8x512 .f32) (c : Fin 1024) (hc : c.val < 1000) (p : Fin 8) (k : Fin 512) :
    protoArr mu (ix3 p k c) = Ideal.ofBits .f32 0xC0000000#32 * mu (ix3 (⟨c.val, hc⟩ : Fin 1000) p k) := by
  unfold protoArr
  show broadcastInDim S8x512x1024 ![] bcast_S_S8x512x1024 (constant (F := Ideal) S_ .f32 0xC0000000#32) (ix3 p k c)
      * transpose S8x512x1024 [1, 2, 0] (padMu mu) transposes_S1024x8x512_S8x512x1024_1_2_0 (ix3 p k c) = _
  refine congrArg₂ (· * ·) ?_ ?_
  · exact broadcastInDim_apply _ bcast_S_S8x512x1024 _ (ix3 p k c) ix0 (fun a => a.elim0)
  · refine (transpose_apply [1, 2, 0] (padMu mu) transposes_S1024x8x512_S8x512x1024_1_2_0 (ix3 p k c) (ix3 c p k) fun b => ?_).trans
      (padMu_apply mu c hc p k)
    match b with
    | ⟨0, _⟩ => rfl
    | ⟨1, _⟩ => rfl
    | ⟨2, _⟩ => rfl

/-- N(p, 0, c) = (word for 0) + sum_k mu(c, p, k)^2. -/
theorem normArr_apply (mu : FVec Ideal S1000x8x512 .f32) (c : Fin 1024) (hc : c.val < 1000) (p : Fin 8) :
    normArr mu (ix3 p (0 : Fin 1) c) = Ideal.ofBits .f32 0x00000000#32
      + ∑ k : Fin 512, mu (ix3 (⟨c.val, hc⟩ : Fin 1000) p k) * mu (ix3 (⟨c.val, hc⟩ : Fin 1000) p k) := by
  unfold normArr
  refine (broadcastInDim_apply _ bcast_S8x1024_S8x1x1024_0_2 _ (ix3 p (0 : Fin 1) c) (ix2 p c) fun a => ?_).trans ?_
  · match a with
    | ⟨0, _⟩ => rfl
    | ⟨1, _⟩ => rfl
  refine (transpose_apply [1, 0] _ transposes_S1024x8_S8x1024_1_0 (ix2 p c) (ix2 c p) fun b => ?_).trans ?_
  · match b with
    | ⟨0, _⟩ => rfl
    | ⟨1, _⟩ => rfl
  simp only [Host.reduceAdd, Ideal.hostReduceAdd_def]
  rw [Ideal.hostReduceAdd_single reducesTo_S1024x8x512_S1024x8_d2 (by decide)]
  refine congrArg (_ + ·) (Finset.sum_congr rfl fun k _ => ?_)
  have e : (by decide : S1024x8x512.Reduces [2] S1024x8).lift (ix2 c p) k = ix3 c p k :=
    funext fun a => Fin.ext (by match a with | ⟨0, _⟩ => rfl | ⟨1, _⟩ => rfl | ⟨2, _⟩ => rfl)
  rw [e]
  show padMu mu (ix3 c p k) * padMu mu (ix3 c p k) = _
  rw [padMu_apply mu c hc p k]

end Cert.KernelIdeal.Prefix

end
-- ==== Proof.DistSpec.lean ====
/-
  One entry of the result, as a function of the two argument arrays, in the two groupings of the expansion.

  For a latent row b of z : [8192, 512] and a class c of mu : [1000, 8, 512], the entry is the smallest, over the
  eight prototypes p of the class, of the expanded squared distance between row z_b and row mu_(c, p). The two
  programs group the expansion differently (factor inside or outside the sum); on arrays of real numbers the two
  entries are equal.
-/
import proofs.«116413_j47845935677591_2_alg».proof.Proof.LibDistExpansion
import Idealize.ShloMosaic.Lib.ValueIdx

noncomputable section

open scoped BigOperators

namespace Cert.DistSpec

open Idealize.ShloMosaic Idealize.ShloMosaic.ValueIdx Cert.LibDistExpansion

/-- The entry with the factor a inside the sum. -/
def inEntry (z : (⟨2, ![8192, 512]⟩ : Shape).Idx → EReal) (mu : (⟨3, ![1000, 8, 512]⟩ : Shape).Idx → EReal) (a : EReal)
    (b : Fin 8192) (c : Fin 1000) : EReal :=
  min8 fun p => distIn (fun k : Fin 512 => z (ix2 b k)) (fun k : Fin 512 => mu (ix3 c p k)) a

/-- The entry with the factor t outside the sum. -/
def outEntry (z : (⟨2, ![8192, 512]⟩ : Shape).Idx → EReal) (mu : (⟨3, ![1000, 8, 512]⟩ : Shape).Idx → EReal) (t : EReal)
    (b : Fin 8192) (c : Fin 1000) : EReal :=
  min8 fun p => distOut (fun k : Fin 512 => z (ix2 b k)) (fun k : Fin 512 => mu (ix3 c p k)) t

/-- On arrays of real numbers the two entries agree, the factors being -2 and 2. -/
theorem inEntry_eq_outEntry (z : (⟨2, ![8192, 512]⟩ : Shape).Idx → EReal) (mu : (⟨3, ![1000, 8, 512]⟩ : Shape).Idx → EReal)
    (hz : ∀ i, ∃ r : ℝ, z i = (r : EReal)) (hmu : ∀ i, ∃ r : ℝ, mu i = (r : EReal)) (b : Fin 8192) (c : Fin 1000) :
    inEntry z mu ((-2 : ℝ) : EReal) b c = outEntry z mu ((2 : ℝ) : EReal) b c :=
  min8_congr fun _ => distIn_eq_distOut _ _ (fun _ => hz _) (fun _ => hmu _)

end Cert.DistSpec

end
-- ==== Proof.KernelResult.lean ====
/-
  The kernel program's two results after the whole run, as functions of the argument arrays.

  After the region the host takes columns 0 .. 999 of each [8192, 1024] output array. So the second result at (b, c)
  is the minimum array's entry (b, c) for c < 1000, where the resident arrays are the host's functions of mu: the
  norms N(p, 0, c) = 0 + sum_k mu(c, p, k)^2 and the scaled prototypes W(p, k, c) = (word for -2) * mu(c, p, k). That is
  the expansion with the factor inside the sum. The first result is zero minus the second.
-/
import proofs.«116413_j47845935677591_2_alg».proof.Proof.Gen.KernelIdeal.Frame
import proofs.«116413_j47845935677591_2_alg».proof.Proof.OutputArrays
import proofs.«116413_j47845935677591_2_alg».proof.Proof.HostPrefix
import proofs.«116413_j47845935677591_2_alg».proof.Proof.DistSpec
import Idealize.ShloMosaic.Lib.StableHlo.Run
import Idealize.ShloMosaic.Lib.Pipeline.Value
import Idealize.ShloMosaic.Lib.ValueIdx

noncomputable section

open scoped BigOperators

namespace Cert.KernelIdeal.Result

open Cert.KernelIdeal Cert.KernelIdeal.Gen Idealize.ShloMosaic Idealize.ShloMosaic.TcCoe Idealize.SL.Sem
  Idealize.ShloMosaic.StableHlo Idealize.ShloMosaic.ValueIdx Cert.LibDistExpansion Cert.DistSpec
  Cert.KernelIdeal.Arrays Cert.KernelIdeal.Prefix

/-! ## The results as terms of the argument arrays -/

/-- The second result: columns below 1000 of the minimum array over the host's resident arrays. -/
def minResult (z : S8192x512.Idx → EReal) (mu : FVec Ideal S1000x8x512 .f32) : S8192x1000.Idx → EReal :=
  extractStridedSlice S8192x1000 ![0, 0] (minArr z (protoArr mu) (normArr mu)) slices_S8192x1024_S8192x1000_0_0

/-- The first result: the same columns of the negated array. -/
def negResult (z : S8192x512.Idx → EReal) (mu : FVec Ideal S1000x8x512 .f32) : S8192x1000.Idx → EReal :=
  extractStridedSlice S8192x1000 ![0, 0] (negArr z (protoArr mu) (normArr mu)) slices_S8192x1024_S8192x1000_0_0

/-! ## Entry by entry -/

/-- Over the host's resident arrays, the minimum array's entry at a class below 1000 is the entry with the factor
    inside the sum. -/
theorem minEntry_host (z : S8192x512.Idx → EReal) (mu : FVec Ideal S1000x8x512 .f32) (b : Fin 8192) (c : Fin 1000)
    (hC : c.val < 1024) :
    minEntry z (protoArr mu) (normArr mu) b ⟨c.val, hC⟩ = inEntry z mu (Ideal.ofBits .f32 0xC0000000#32) b c := by
  unfold minEntry inEntry distIn
  refine min8_congr fun p => ?_
  rw [normArr_apply mu ⟨c.val, hC⟩ c.isLt p, word_zero, zero_add]
  refine congrArg₂ (· + ·) rfl (Finset.sum_congr rfl fun k _ => ?_)
  rw [protoArr_apply mu ⟨c.val, hC⟩ c.isLt p k]

theorem minResult_apply (z : S8192x512.Idx → EReal) (mu : FVec Ideal S1000x8x512 .f32) (b : Fin 8192) (c : Fin 1000) :
    minResult z mu (ix2 b c) = inEntry z mu (Ideal.ofBits .f32 0xC0000000#32) b c := by
  have hC : c.val < 1024 := by have := c.isLt; omega
  unfold minResult
  refine (extractStridedSlice_apply ![0, 0] _ slices_S8192x1024_S8192x1000_0_0 (ix2 b c)
    (ix2 b (⟨c.val, hC⟩ : Fin 1024)) fun a => ?_).trans ?_
  · match a with
    | ⟨0, _⟩ => show b.val = 0 + b.val; omega
    | ⟨1, _⟩ => show c.val = 0 + c.val; omega
  exact minEntry_host z mu b c hC

theorem negResult_apply (z : S8192x512.Idx → EReal) (mu : FVec Ideal S1000x8x512 .f32) (b : Fin 8192) (c : Fin 1000) :
    negResult z mu (ix2 b c) = 0 - inEntry z mu (Ideal.ofBits .f32 0xC0000000#32) b c := by
  have hC : c.val < 1024 := by have := c.isLt; omega
  unfold negResult
  refine (extractStridedSlice_apply ![0, 0] _ slices_S8192x1024_S8192x1000_0_0 (ix2 b c)
    (ix2 b (⟨c.val, hC⟩ : Fin 1024)) fun a => ?_).trans ?_
  · match a with
    | ⟨0, _⟩ => show b.val = 0 + b.val; omega
    | ⟨1, _⟩ => show c.val = 0 + c.val; omega
  exact congrArg (0 - ·) (minEntry_host z mu b c hC)

/-! ## The run -/

variable (m : (ℓ : Loc nD τ sig) → Buf (Elt Ideal) ℓ) (ρ : Dev nD → PrngReg)

/-- The host's slice of the minimum array after the region. -/
theorem tail_v11 (c : Dev nD) :
    (Pipeline.afterTail₀ cfgs (dats m) 0 (V0 m) [hostOps1] c main_v11 : S8192x1000.Idx → EReal)
      = minResult (m ((c : Thread nD τ).loc main_arg0)) (m ((c : Thread nD τ).loc main_arg1)) := by
  unfold Pipeline.afterTail₀
  show StableHlo.after hostOps1 _ (Proc.devRef .tc main_v11) = _
  after_results
  unfold minResult
  refine congrArg (fun A : S8192x1024.Idx → EReal => extractStridedSlice S8192x1000 ![0, 0] A slices_S8192x1024_S8192x1000_0_0) ?_
  refine (Pipeline.withArrays_arr spec0 launch0.win.arr_inj c _ _ 4).trans ?_
  rw [final4 m c, V_main_arg0 m c, V_main_v4 m c, V_main_v8 m c]

/-- The host's slice of the negated array after the region. -/
theorem tail_v10 (c : Dev nD) :
    (Pipeline.afterTail₀ cfgs (dats m) 0 (V0 m) [hostOps1] c main_v10 : S8192x1000.Idx → EReal)
      = negResult (m ((c : Thread nD τ).loc main_arg0)) (m ((c : Thread nD τ).loc main_arg1)) := by
  unfold Pipeline.afterTail₀
  show StableHlo.after hostOps1 _ (Proc.devRef .tc main_v10) = _
  after_results
  unfold negResult
  refine congrArg (fun A : S8192x1024.Idx → EReal => extractStridedSlice S8192x1000 ![0, 0] A slices_S8192x1024_S8192x1000_0_0) ?_
  refine (Pipeline.withArrays_arr spec0 launch0.win.arr_inj c _ _ 3).trans ?_
  rw [final3 m c, V_main_arg0 m c, V_main_v4 m c, V_main_v8 m c]

/-- Every weakly fair execution of the program ends with the two results at these terms of the launch contents of the
    arguments, and the arguments unchanged. -/
theorem run : θ_run defs (onTc (τ := τ) (main (F := Ideal))) ⟨m, fun _ => 0, ρ⟩ (fun r => ∀ c : Dev nD,
      r.2.mem ((c.tc : Thread nD τ).loc main_v10)
        = negResult (m ((c.tc : Thread nD τ).loc main_arg0)) (m ((c.tc : Thread nD τ).loc main_arg1))
      ∧ r.2.mem ((c.tc : Thread nD τ).loc main_v11)
        = minResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (tail_v10 m c),
      ((h c).2 main_v11 (Pipeline.mem_restRefs_of main_v11 (by decide) (by decide))).trans (tail_v11 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.ReferenceEntry.lean ====
/-
  The reference's two results, entry by entry, at the ideal instance.

  The reference forms d(b, c, p) = (|z_b|^2 - 2 * sum_k z(b, k) * mu(c, p, k)) + |mu_(c,p)|^2 as a [8192, 1000, 8]
  array, takes the minimum along the last axis starting from +infinity, and negates it for the first result.
  Read at (b, c): the minimum along the axis is the fold of min from the top element over the eight prototypes, that
  is the nested minimum of eight; each d(b, c, p) is the expansion with the factor outside the sum.
-/
import proofs.«116413_j47845935677591_2_alg».proof.Proof.Gen.ReferenceIdeal.Read
import proofs.«116413_j47845935677591_2_alg».proof.Proof.DistSpec
import Idealize.ShloMosaic.PureOps.Reduce
import Idealize.ShloMosaic.PureOps.Ideal.Laws

noncomputable section

open scoped BigOperators

namespace Cert.ReferenceIdeal.Entry

open Cert.ReferenceIdeal Cert.ReferenceIdeal.Gen Cert.ReferenceIdeal.Read Idealize.ShloMosaic Idealize.ShloMosaic.ValueIdx
  Cert.LibDistExpansion Cert.DistSpec

/-- The distance array at (b, c, p). -/
theorem dist_apply (z : (⟨S8192x512, .f32⟩ : BufTy).Contents (Elt Ideal)) (mu : (⟨S1000x8x512, .f32⟩ : BufTy).Contents (Elt Ideal))
    (b : Fin 8192) (c : Fin 1000) (p : Fin 8) :
    val_main_v12 (F := Ideal) z mu (ix3 b c p)
      = distOut (fun k : Fin 512 => z (ix2 b k)) (fun k : Fin 512 => mu (ix3 c p k)) (Ideal.ofBits .f32 0x40000000#32) := by
  have i1 : ∀ k : Fin 512, idx_main_v1 (idx_main_v5 (idx_main_v8 (ix3 b c p))) k = ix2 b k := fun k =>
    funext fun a => Fin.ext (by match a with | ⟨0, _⟩ => rfl | ⟨1, _⟩ => rfl)
  have i3 : ∀ k : Fin 512, idx_main_v3 (idx_main_v10 (idx_main_v11 (ix3 b c p))) k = ix3 c p k := fun k =>
    funext fun a => Fin.ext (by match a with | ⟨0, _⟩ => rfl | ⟨1, _⟩ => rfl | ⟨2, _⟩ => rfl)
  have il : ∀ k : Fin 512, lidx_main_v4 (ix3 b c p) k = ix2 b k := fun k =>
    funext fun a => Fin.ext (by match a with | ⟨0, _⟩ => rfl | ⟨1, _⟩ => rfl)
  have ir : ∀ k : Fin 512, ridx_main_v4 (ix3 b c p) k = ix3 c p k := fun k =>
    funext fun a => Fin.ext (by match a with | ⟨0, _⟩ => rfl | ⟨1, _⟩ => rfl | ⟨2, _⟩ => rfl)
  rw [val_main_v12_apply, val_main_v9_apply, val_main_v8_apply, val_main_v5_apply, val_main_v1_apply, val_main_v7_apply,
    val_main_v6_apply, val_main_v4_apply, val_main_v11_apply, val_main_v10_apply, val_main_v3_apply]
  simp only [val_main_v0_apply, val_main_v2_apply, val_main_cst_apply, val_main_cst_0_apply, val_main_cst_1_apply,
    Ideal.addf_def, Ideal.subf_def, Ideal.mulf_def, Ideal.ofBits_def, word_zero, zero_add, i1, i3, il, ir]
  rfl

/-- The second result at (b, c). -/
theorem min_apply (z : (⟨S8192x512, .f32⟩ : BufTy).Contents (Elt Ideal)) (mu : (⟨S1000x8x512, .f32⟩ : BufTy).Contents (Elt Ideal))
    (b : Fin 8192) (c : Fin 1000) :
    val_main_v13 (F := Ideal) z mu (ix2 b c) = outEntry z mu (Ideal.ofBits .f32 0x40000000#32) b c := by
  unfold val_main_v13
  rw [Host.reduce_eq_fold_single FloatOps.minimumf _ _ reducesTo_S8192x1000x8_S8192x1000_d2
    (by decide : S8192x1000x8.Reduces [2] S8192x1000) h_S_ (ix2 b c)]
  show (Finset.univ : Finset (Fin 8)).fold min (Ideal.ofBits .f32 0x7F800000#32)
      (fun p => val_main_v12 (F := Ideal) z mu ((by decide : S8192x1000x8.Reduces [2] S8192x1000).lift (ix2 b c) p)) = _
  rw [word_top]
  refine (fold_min_eq_min8 _).trans ?_
  unfold outEntry
  refine min8_congr fun p => ?_
  show val_main_v12 (F := Ideal) z mu ((by decide : S8192x1000x8.Reduces [2] S8192x1000).lift (ix2 b c) p) = _
  have e : (by decide : S8192x1000x8.Reduces [2] S8192x1000).lift (ix2 b c) p = ix3 b c p :=
    funext fun a => Fin.ext (by match a with | ⟨0, _⟩ => rfl | ⟨1, _⟩ => rfl | ⟨2, _⟩ => rfl)
  rw [e]
  exact dist_apply z mu b c p

/-- The first result at (b, c): minus the second. -/
theorem neg_apply (z : (⟨S8192x512, .f32⟩ : BufTy).Contents (Elt Ideal)) (mu : (⟨S1000x8x512, .f32⟩ : BufTy).Contents (Elt Ideal))
    (i : S8192x1000.Idx) :
    val_main_v14 (F := Ideal) z mu i = 0 - val_main_v13 (F := Ideal) z mu i := by
  rw [val_main_v14_apply, Ideal.hostNegf_def, Ideal.negf_def, sub_eq_add_neg, zero_add]

end Cert.ReferenceIdeal.Entry

end
-- ==== Proof.Bridge.lean ====
/-
  The two programs' results are the same functions of arrays of real numbers.

  Entry (b, c) of the kernel program's second result is the smallest over the eight prototypes of the class of the
  expansion with the factor -2 inside the sum; the reference's is the same with the factor 2 outside. The literal
  words denote -2 and 2, and on real arrays the two groupings agree. The first results are zero minus, and minus, the
  second ones.
-/
import proofs.«116413_j47845935677591_2_alg».proof.Proof.KernelResult
import proofs.«116413_j47845935677591_2_alg».proof.Proof.ReferenceEntry
import proofs.«116413_j47845935677591_2_alg».proof.Proof.DistSpec

noncomputable section

namespace Cert.Bridge

open Idealize.ShloMosaic Idealize.ShloMosaic.ValueIdx Cert.LibDistExpansion Cert.DistSpec

theorem min_eq (z : (⟨2, ![8192, 512]⟩ : Shape).Idx → EReal) (mu : (⟨3, ![1000, 8, 512]⟩ : Shape).Idx → EReal)
    (hz : ∀ i, ∃ r : ℝ, z i = (r : EReal)) (hmu : ∀ i, ∃ r : ℝ, mu i = (r : EReal)) :
    Cert.KernelIdeal.Result.minResult z mu = Cert.ReferenceIdeal.Read.val_main_v13 (F := Ideal) z mu := by
  funext i
  obtain ⟨b, c, rfl⟩ : ∃ (b : Fin 8192) (c : Fin 1000), i = ix2 b c := ⟨i 0, i 1, eq_ix2 i⟩
  refine (Cert.KernelIdeal.Result.minResult_apply z mu b c).trans ?_
  refine Eq.trans ?_ (Cert.ReferenceIdeal.Entry.min_apply z mu b c).symm
  rw [word_neg_two, word_two]
  exact inEntry_eq_outEntry z mu hz hmu b c

theorem neg_eq (z : (⟨2, ![8192, 512]⟩ : Shape).Idx → EReal) (mu : (⟨3, ![1000, 8, 512]⟩ : Shape).Idx → EReal)
    (hz : ∀ i, ∃ r : ℝ, z i = (r : EReal)) (hmu : ∀ i, ∃ r : ℝ, mu i = (r : EReal)) :
    Cert.KernelIdeal.Result.negResult z mu = Cert.ReferenceIdeal.Read.val_main_v14 (F := Ideal) z mu := by
  funext i
  obtain ⟨b, c, rfl⟩ : ∃ (b : Fin 8192) (c : Fin 1000), i = ix2 b c := ⟨i 0, i 1, eq_ix2 i⟩
  refine (Cert.KernelIdeal.Result.negResult_apply z mu b c).trans ?_
  refine Eq.trans ?_ (Cert.ReferenceIdeal.Entry.neg_apply z mu (ix2 b c)).symm
  refine congrArg (0 - ·) ?_
  refine Eq.trans ?_ (Cert.ReferenceIdeal.Entry.min_apply z mu b c).symm
  rw [word_neg_two, word_two]
  exact inEntry_eq_outEntry z mu hz hmu b c

end Cert.Bridge

end
-- ==== Proof.FiniteInputs.lean ====
/-
  The precondition read back: every entry of both argument arrays is a real number.

  The precondition says that |x| < +infinity holds at every entry of each array (two reductions by "and" over all
  axes, joined by "and"). On the extended reals |x| is max x (-x), which is +infinity at both infinities, so the
  comparison holds exactly at the real numbers.
-/
import proofs.«116413_j47845935677591_2_alg».proof.Proof.Gen.Pre_finite_inputs
import proofs.«116413_j47845935677591_2_alg».proof.Proof.LibDistExpansion
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Cert.LibDistExpansion

instance : Subsingleton S_.Idx := ⟨fun _ _ => funext fun d => d.elim0⟩

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  rw [word_top] at h
  induction x using EReal.rec with
  | bot => simp [Ideal.cmp] at h
  | top => simp [Ideal.cmp] at h
  | coe r => exact ⟨r, rfl⟩

/-- Under the precondition both arrays hold real numbers only. -/
theorem real_of_pre (z : FVec Ideal S8192x512 .f32) (mu : FVec Ideal S1000x8x512 .f32)
    (h : fn (F := Ideal) z mu = fun _ => 1#1) :
    (∀ i, ∃ r : ℝ, z i = (r : EReal)) ∧ (∀ i, ∃ r : ℝ, mu i = (r : EReal)) := by
  have h0 := congrFun h ValueIdx.ix0
  dsimp only [fn] at h0
  obtain ⟨h1, h2⟩ := IntOp.andi_eq_one.mp h0
  refine ⟨fun i => real_of_abs_lt (z i) ?_, fun i => real_of_abs_lt (mu i) ?_⟩
  · exact Host.reduce_andi_all _ _ _ _ _ h1 i
  · exact Host.reduce_andi_all _ _ _ _ _ h2 i

end Cert.Pre_finite_inputs.Finite

end
-- ==== Proof.lean ====
/-
  Nearest-prototype squared distances, two ways, are equal on the extended reals when the inputs are real.

  For latent vectors z : [8192, 512] and a codebook mu : [1000, 8, 512] of eight prototypes per class, both programs
  return, for every vector b and class c,

      m(b, c) = min over the eight prototypes p of  |z_b|^2 - 2 z_b . mu_(c,p) + |mu_(c,p)|^2

  and its negative. The reference computes the three terms with a contraction over the 512 features, subtracts twice
  the cross term from |z_b|^2, adds |mu_(c,p)|^2 and reduces by min from +infinity. The kernel program pads the
  classes to 1024, prepares -2 mu (transposed) and |mu|^2 on the host, and on each tile of 512 latent vectors adds
  |z_b|^2 + |mu_(c,p)|^2 first and then the matrix product z_b . (-2 mu_(c,p)), takes the eight-fold minimum as a chain
  of binary minima, and the host drops the 24 padded classes afterwards.

  The proof reads both programs entry by entry (b, c) with c < 1000. The kernel side: the tile's payload at an entry
  (KernelTile), the tiles against the whole arrays and the sixteen row blocks covering them (OutputArrays), the two
  resident arrays as functions of mu at a class below 1000, where padding is not seen (HostPrefix), and the slices the
  host takes after the region (KernelResult). The reference side: its generated run, read one operation at a time
  (ReferenceEntry). The two entries differ only in where the factor 2 sits and in the grouping of the sum, which
  agree for real numbers (LibDistExpansion, DistSpec), and the precondition says exactly that every input entry is real
  (FiniteInputs). The chain of seven binary minima is the fold of min from the top element. The idealization rewrote
  nothing in the kernel program, so there is nothing to preserve beyond the text itself.
-/
import proofs.«116413_j47845935677591_2_alg».proof.Defs
import proofs.«116413_j47845935677591_2_alg».proof.Proof.Gen.Kernel
import proofs.«116413_j47845935677591_2_alg».proof.Proof.Gen.Kernel.Skeleton
import proofs.«116413_j47845935677591_2_alg».proof.Proof.Gen.Kernel.Launch
import proofs.«116413_j47845935677591_2_alg».proof.Proof.Gen.Kernel.Points
import proofs.«116413_j47845935677591_2_alg».proof.Proof.Gen.Kernel.Frame
import proofs.«116413_j47845935677591_2_alg».proof.Proof.Gen.KernelIdeal
import proofs.«116413_j47845935677591_2_alg».proof.Proof.Gen.KernelIdeal.Skeleton
import proofs.«116413_j47845935677591_2_alg».proof.Proof.Gen.KernelIdeal.Launch
import proofs.«116413_j47845935677591_2_alg».proof.Proof.Gen.KernelIdeal.Points
import proofs.«116413_j47845935677591_2_alg».proof.Proof.Gen.KernelIdeal.Frame
import proofs.«116413_j47845935677591_2_alg».proof.Proof.Gen.ReferenceIdeal
import proofs.«116413_j47845935677591_2_alg».proof.Proof.Gen.ReferenceIdeal.Run
import proofs.«116413_j47845935677591_2_alg».proof.Proof.Gen.ReferenceIdeal.Read
import proofs.«116413_j47845935677591_2_alg».proof.Proof.Gen.Pre_finite_inputs
import proofs.«116413_j47845935677591_2_alg».proof.Proof.KernelResult
import proofs.«116413_j47845935677591_2_alg».proof.Proof.Bridge
import proofs.«116413_j47845935677591_2_alg».proof.Proof.FiniteInputs
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the arguments, whose entries are real by the precondition, both idealized programs
    end with the reference's two results. -/
theorem algebraic : Cert.algebraic_KernelIdeal_ReferenceIdeal := by
  intro m ρ m' ρ' hpre hagree
  refine ⟨fun c => Cert.ReferenceIdeal.Read.val_main_v14 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.Read.val_main_v13 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.Result.run m ρ)
    obtain ⟨h10, h11, h0, h1⟩ := h c
    obtain ⟨hz, hmu⟩ := Cert.Pre_finite_inputs.Finite.real_of_pre _ _ (hpre c)
    exact ⟨h10.trans (Cert.Bridge.neg_eq _ _ hz hmu), h11.trans (Cert.Bridge.min_eq _ _ hz hmu), h0, h1⟩
  · refine (θ_run Cert.ReferenceIdeal.defs _ _).mono (fun _ h c => ?_)
      (Cert.ReferenceIdeal.Value.run (F := Ideal) m' ρ')
    obtain ⟨h14, h13, h0, h1⟩ := h c
    refine ⟨h14.trans ?_, h13.trans ?_, h0, h1⟩
    · rw [(hagree c).1, (hagree c).2]
      exact Cert.ReferenceIdeal.Read.val_main_v14_eq _ _
    · rw [(hagree c).1, (hagree c).2]
      exact Cert.ReferenceIdeal.Read.val_main_v13_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
